-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048 : Shape := ⟨2, ![32, 2048]⟩
abbrev S2048x2048 : Shape := ⟨2, ![2048, 2048]⟩
abbrev S_ : Shape := ⟨0, ![]⟩

class Facts : Prop where
  bcast_S_S32x2048 : S_.BroadcastsInDim S32x2048 (![] : Fin 0 → Fin S32x2048.rank)
  reducesTo_S32x2048_S_d0_1 : S32x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_

variable [Facts]

def fn {F : FTy → Type} [FloatOps F] (main_arg0 : FVec F S32x2048 .f32) (main_arg1 : FVec F S32x2048 .f32) (main_arg2 : FVec F S2048x2048 .f32) : IVec S_ 1 :=
  let main_v0 : FVec F S32x2048 .f32 := Host.absf main_arg0
  let main_cst : FVec F S_ .f32 := constant S_ .f32 0x7F800000#32
  let main_v1 : FVec F S32x2048 .f32 := broadcastInDim S32x2048 ![] bcast_S_S32x2048 main_cst
  let main_v2 : IVec S32x2048 1 := cmpf .olt main_v0 main_v1
  let main_c : IVec S_ 1 := constantI S_ 1 1#1
  let main_v3 : IVec S_ 1 := (fun x v => Host.reduce IntOp.andi x v reducesTo_S32x2048_S_d0_1 h_S_) main_v2 main_c
  let main_v4 : FVec F S32x2048 .f32 := Host.absf main_arg1
  let main_cst_0 : FVec F S_ .f32 := constant S_ .f32 0x7F800000#32
  let main_v5 : FVec F S32x2048 .f32 := broadcastInDim S32x2048 ![] bcast_S_S32x2048 main_cst_0
  let main_v6 : IVec S32x2048 1 := cmpf .olt main_v4 main_v5
  let main_c_1 : IVec S_ 1 := constantI S_ 1 1#1
  let main_v7 : IVec S_ 1 := (fun x v => Host.reduce IntOp.andi x v reducesTo_S32x2048_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  main_v13
-- ==== Kernel.lean ====
abbrev S32x2048 : Shape := ⟨2, ![32, 2048]⟩
abbrev S2048x2048 : Shape := ⟨2, ![2048, 2048]⟩
abbrev S2048x32 : Shape := ⟨2, ![2048, 32]⟩
abbrev S2048x512 : Shape := ⟨2, ![2048, 512]⟩
abbrev S32x512 : Shape := ⟨2, ![32, 512]⟩
abbrev S2048x1 : Shape := ⟨2, ![2048, 1]⟩
abbrev S512 : Shape := ⟨1, ![512]⟩
abbrev S1x512 : Shape := ⟨2, ![1, 512]⟩
abbrev S_ : Shape := ⟨0, ![]⟩

abbrev nBuf : Space → Nat
  | .hbm => 9
  | .vmem => 8
  | .smem => 0
  | _ => 0

abbrev bufTy : (tb : Table) → Fin (tcTables nBuf tb) → BufTy
  | .hbm, ⟨0, _⟩ => ⟨S32x2048, .f32⟩
  | .hbm, ⟨1, _⟩ => ⟨S32x2048, .f32⟩
  | .hbm, ⟨2, _⟩ => ⟨S2048x2048, .f32⟩
  | .hbm, ⟨3, _⟩ => ⟨S2048x32, .f32⟩
  | .hbm, ⟨4, _⟩ => ⟨S32x2048, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S2048x32, .f32⟩
  | .local _ .vmem, ⟨1, _⟩ => ⟨S2048x512, .f32⟩
  | .local _ .vmem, ⟨2, _⟩ => ⟨S2048x512, .f32⟩
  | .local _ .vmem, ⟨3, _⟩ => ⟨S32x512, .f32⟩
  | .local _ .vmem, ⟨4, _⟩ => ⟨S32x512, .f32⟩
  | .local _ .vmem, ⟨5, _⟩ => ⟨S32x512, .f32⟩
  | .local _ .vmem, ⟨6, _⟩ => ⟨S32x512, .f32⟩
  | .local _ .vmem, ⟨7, _⟩ => ⟨S32x512, .f32⟩
  | _, _ => ⟨S32x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S32x2048_S2048x32_1_0 : S32x2048.Transposes [1, 0] S2048x32
  inb_S2048x32_S2048x32_0_0 : ∀ a, (![0, 0] : Fin 2 → Nat) a + S2048x32.size a ≤ S2048x32.size a
  h_S2048x32 : 0 < S2048x32.numel
  shapeCasts_S2048x32_S2048x32 : S2048x32.ShapeCasts S2048x32
  inb_S2048x512_S2048x512_0_0 : ∀ a, (![0, 0] : Fin 2 → Nat) a + S2048x512.size a ≤ S2048x512.size a
  h_S2048x512 : 0 < S2048x512.numel
  slices_S2048x32_o0_0_S2048x1 : S2048x32.Slices ![0, 0] S2048x1
  broadcasts_S2048x1_S2048x512 : S2048x1.Broadcasts S2048x512
  reduces_S2048x512_S512 : S2048x512.Reduces [0] S512
  shapeCasts_S512_S1x512 : S512.ShapeCasts S1x512
  inb_S32x512_S1x512_0_0 : ∀ a, (![0, 0] : Fin 2 → Nat) a + S1x512.size a ≤ S32x512.size a
  h_S1x512 : 0 < S1x512.numel
  shapeCasts_S1x512_S1x512 : S1x512.ShapeCasts S1x512
  slices_S2048x32_o0_1_S2048x1 : S2048x32.Slices ![0, 1] S2048x1
  inb_S32x512_S1x512_1_0 : ∀ a, (![1, 0] : Fin 2 → Nat) a + S1x512.size a ≤ S32x512.size a
  slices_S2048x32_o0_2_S2048x1 : S2048x32.Slices ![0, 2] S2048x1
  inb_S32x512_S1x512_2_0 : ∀ a, (![2, 0] : Fin 2 → Nat) a + S1x512.size a ≤ S32x512.size a
  slices_S2048x32_o0_3_S2048x1 : S2048x32.Slices ![0, 3] S2048x1
  inb_S32x512_S1x512_3_0 : ∀ a, (![3, 0] : Fin 2 → Nat) a + S1x512.size a ≤ S32x512.size a
  slices_S2048x32_o0_4_S2048x1 : S2048x32.Slices ![0, 4] S2048x1
  inb_S32x512_S1x512_4_0 : ∀ a, (![4, 0] : Fin 2 → Nat) a + S1x512.size a ≤ S32x512.size a
  slices_S2048x32_o0_5_S2048x1 : S2048x32.Slices ![0, 5] S2048x1
  inb_S32x512_S1x512_5_0 : ∀ a, (![5, 0] : Fin 2 → Nat) a + S1x512.size a ≤ S32x512.size a
  slices_S2048x32_o0_6_S2048x1 : S2048x32.Slices ![0, 6] S2048x1
  inb_S32x512_S1x512_6_0 : ∀ a, (![6, 0] : Fin 2 → Nat) a + S1x512.size a ≤ S32x512.size a
  slices_S2048x32_o0_7_S2048x1 : S2048x32.Slices ![0, 7] S2048x1
  inb_S32x512_S1x512_7_0 : ∀ a, (![7, 0] : Fin 2 → Nat) a + S1x512.size a ≤ S32x512.size a
  slices_S2048x32_o0_8_S2048x1 : S2048x32.Slices ![0, 8] S2048x1
  inb_S32x512_S1x512_8_0 : ∀ a, (![8, 0] : Fin 2 → Nat) a + S1x512.size a ≤ S32x512.size a
  slices_S2048x32_o0_9_S2048x1 : S2048x32.Slices ![0, 9] S2048x1
  inb_S32x512_S1x512_9_0 : ∀ a, (![9, 0] : Fin 2 → Nat) a + S1x512.size a ≤ S32x512.size a
  slices_S2048x32_o0_10_S2048x1 : S2048x32.Slices ![0, 10] S2048x1
  inb_S32x512_S1x512_10_0 : ∀ a, (![10, 0] : Fin 2 → Nat) a + S1x512.size a ≤ S32x512.size a
  slices_S2048x32_o0_11_S2048x1 : S2048x32.Slices ![0, 11] S2048x1
  inb_S32x512_S1x512_11_0 : ∀ a, (![11, 0] : Fin 2 → Nat) a + S1x512.size a ≤ S32x512.size a
  slices_S2048x32_o0_12_S2048x1 : S2048x32.Slices ![0, 12] S2048x1
  inb_S32x512_S1x512_12_0 : ∀ a, (![12, 0] : Fin 2 → Nat) a + S1x512.size a ≤ S32x512.size a
  slices_S2048x32_o0_13_S2048x1 : S2048x32.Slices ![0, 13] S2048x1
  inb_S32x512_S1x512_13_0 : ∀ a, (![13, 0] : Fin 2 → Nat) a + S1x512.size a ≤ S32x512.size a
  slices_S2048x32_o0_14_S2048x1 : S2048x32.Slices ![0, 14] S2048x1
  inb_S32x512_S1x512_14_0 : ∀ a, (![14, 0] : Fin 2 → Nat) a + S1x512.size a ≤ S32x512.size a
  slices_S2048x32_o0_15_S2048x1 : S2048x32.Slices ![0, 15] S2048x1
  inb_S32x512_S1x512_15_0 : ∀ a, (![15, 0] : Fin 2 → Nat) a + S1x512.size a ≤ S32x512.size a
  slices_S2048x32_o0_16_S2048x1 : S2048x32.Slices ![0, 16] S2048x1
  inb_S32x512_S1x512_16_0 : ∀ a, (![16, 0] : Fin 2 → Nat) a + S1x512.size a ≤ S32x512.size a
  slices_S2048x32_o0_17_S2048x1 : S2048x32.Slices ![0, 17] S2048x1
  inb_S32x512_S1x512_17_0 : ∀ a, (![17, 0] : Fin 2 → Nat) a + S1x512.size a ≤ S32x512.size a
  slices_S2048x32_o0_18_S2048x1 : S2048x32.Slices ![0, 18] S2048x1
  inb_S32x512_S1x512_18_0 : ∀ a, (![18, 0] : Fin 2 → Nat) a + S1x512.size a ≤ S32x512.size a
  slices_S2048x32_o0_19_S2048x1 : S2048x32.Slices ![0, 19] S2048x1
  inb_S32x512_S1x512_19_0 : ∀ a, (![19, 0] : Fin 2 → Nat) a + S1x512.size a ≤ S32x512.size a
  slices_S2048x32_o0_20_S2048x1 : S2048x32.Slices ![0, 20] S2048x1
  inb_S32x512_S1x512_20_0 : ∀ a, (![20, 0] : Fin 2 → Nat) a + S1x512.size a ≤ S32x512.size a
  slices_S2048x32_o0_21_S2048x1 : S2048x32.Slices ![0, 21] S2048x1
  inb_S32x512_S1x512_21_0 : ∀ a, (![21, 0] : Fin 2 → Nat) a + S1x512.size a ≤ S32x512.size a
  slices_S2048x32_o0_22_S2048x1 : S2048x32.Slices ![0, 22] S2048x1
  inb_S32x512_S1x512_22_0 : ∀ a, (![22, 0] : Fin 2 → Nat) a + S1x512.size a ≤ S32x512.size a
  slices_S2048x32_o0_23_S2048x1 : S2048x32.Slices ![0, 23] S2048x1
  inb_S32x512_S1x512_23_0 : ∀ a, (![23, 0] : Fin 2 → Nat) a + S1x512.size a ≤ S32x512.size a
  slices_S2048x32_o0_24_S2048x1 : S2048x32.Slices ![0, 24] S2048x1
  inb_S32x512_S1x512_24_0 : ∀ a, (![24, 0] : Fin 2 → Nat) a + S1x512.size a ≤ S32x512.size a
  slices_S2048x32_o0_25_S2048x1 : S2048x32.Slices ![0, 25] S2048x1
  inb_S32x512_S1x512_25_0 : ∀ a, (![25, 0] : Fin 2 → Nat) a + S1x512.size a ≤ S32x512.size a
  slices_S2048x32_o0_26_S2048x1 : S2048x32.Slices ![0, 26] S2048x1
  inb_S32x512_S1x512_26_0 : ∀ a, (![26, 0] : Fin 2 → Nat) a + S1x512.size a ≤ S32x512.size a
  slices_S2048x32_o0_27_S2048x1 : S2048x32.Slices ![0, 27] S2048x1
  inb_S32x512_S1x512_27_0 : ∀ a, (![27, 0] : Fin 2 → Nat) a + S1x512.size a ≤ S32x512.size a
  slices_S2048x32_o0_28_S2048x1 : S2048x32.Slices ![0, 28] S2048x1
  inb_S32x512_S1x512_28_0 : ∀ a, (![28, 0] : Fin 2 → Nat) a + S1x512.size a ≤ S32x512.size a
  slices_S2048x32_o0_29_S2048x1 : S2048x32.Slices ![0, 29] S2048x1
  inb_S32x512_S1x512_29_0 : ∀ a, (![29, 0] : Fin 2 → Nat) a + S1x512.size a ≤ S32x512.size a
  slices_S2048x32_o0_30_S2048x1 : S2048x32.Slices ![0, 30] S2048x1
  inb_S32x512_S1x512_30_0 : ∀ a, (![30, 0] : Fin 2 → Nat) a + S1x512.size a ≤ S32x512.size a
  slices_S2048x32_o0_31_S2048x1 : S2048x32.Slices ![0, 31] S2048x1
  inb_S32x512_S1x512_31_0 : ∀ a, (![31, 0] : Fin 2 → Nat) a + S1x512.size a ≤ S32x512.size a
  inb_S32x512_S32x512_0_0 : ∀ a, (![0, 0] : Fin 2 → Nat) a + S32x512.size a ≤ S32x512.size a
  h_S32x512 : 0 < S32x512.numel
  reducesTo_S32x2048_S_d0_1 : S32x2048.ReducesTo [0, 1] S_
  h_S_ : 0 < S_.numel
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2048x32.size a ≤ S2048x32.size a
  hwx0_0 : ∀ i : grid0.Coords, EltTy.bits .f32 = 32 ∨ (Rect.block (s := S2048x32) S2048x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S2048x2048.size a
  hwx0_1 : ∀ i : grid0.Coords, EltTy.bits .f32 = 32 ∨ (Rect.block (s := S2048x2048) S2048x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x512.size a ≤ S32x2048.size a
  hwx0_2 : ∀ i : grid0.Coords, EltTy.bits .f32 = 32 ∨ (Rect.block (s := S32x2048) S32x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x512.size a ≤ S32x2048.size a
  hwx0_3 : ∀ i : grid0.Coords, EltTy.bits .f32 = 32 ∨ (Rect.block (s := S32x2048) S32x512.size (cc0_transform_3 i) (hinb0_3 i)).WholeWords (EltTy.packing .f32)

variable [Facts₀]

abbrev win0_0 : Pipeline.Window sig grid0 :=
  Pipeline.Window.ofSpec (Memref.whole main_v0) S2048x32.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S32x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S32x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x2048 : Shape := ⟨2, ![32, 2048]⟩
abbrev S2048x2048 : Shape := ⟨2, ![2048, 2048]⟩
abbrev S32x2048x1 : Shape := ⟨3, ![32, 2048, 1]⟩
abbrev S1x2048x2048 : Shape := ⟨3, ![1, 2048, 2048]⟩
abbrev S32x2048x2048 : Shape := ⟨3, ![32, 2048, 2048]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S32x2048, .f32⟩
  | .hbm, ⟨1, _⟩ => ⟨S32x2048, .f32⟩
  | .hbm, ⟨2, _⟩ => ⟨S2048x2048, .f32⟩
  | .hbm, ⟨3, _⟩ => ⟨S32x2048x1, .f32⟩
  | .hbm, ⟨4, _⟩ => ⟨S1x2048x2048, .f32⟩
  | .hbm, ⟨5, _⟩ => ⟨S32x2048x2048, .f32⟩
  | .hbm, ⟨6, _⟩ => ⟨S32x2048x2048, .f32⟩
  | .hbm, ⟨7, _⟩ => ⟨S32x2048x2048, .f32⟩
  | .hbm, ⟨8, _⟩ => ⟨S_, .f32⟩
  | .hbm, ⟨9, _⟩ => ⟨S32x2048, .f32⟩
  | .hbm, ⟨10, _⟩ => ⟨S_, .f32⟩
  | .hbm, ⟨11, _⟩ => ⟨S32x2048, .f32⟩
  | .hbm, ⟨12, _⟩ => ⟨S32x2048, .f32⟩
  | .hbm, ⟨13, _⟩ => ⟨S32x2048, .f32⟩
  | .hbm, ⟨14, _⟩ => ⟨S32x2048, .f32⟩
  | .hbm, ⟨15, _⟩ => ⟨S32x2048, .f32⟩
  | .hbm, ⟨16, _⟩ => ⟨S32x2048, .f32⟩
  | .hbm, ⟨17, _⟩ => ⟨S32x2048, .f32⟩
  | .hbm, ⟨18, _⟩ => ⟨S32x2048, .f32⟩
  | .hbm, ⟨19, _⟩ => ⟨S32x2048, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | _, _ => ⟨S32x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩

abbrev nD : Nat := 1
abbrev τ : Topo := Topo.v7x

variable {F : FTy → Type} [FloatOps F]

class Facts₀ : Prop where
  bcast_S32x2048_S32x2048x1_0_1 : S32x2048.BroadcastsInDim S32x2048x1 (![0, 1] : Fin 2 → Fin S32x2048x1.rank)
  bcast_S2048x2048_S1x2048x2048_1_2 : S2048x2048.BroadcastsInDim S1x2048x2048 (![1, 2] : Fin 2 → Fin S1x2048x2048.rank)
  bcast_S32x2048x1_S32x2048x2048_0_1_2 : S32x2048x1.BroadcastsInDim S32x2048x2048 (![0, 1, 2] : Fin 3 → Fin S32x2048x2048.rank)
  bcast_S1x2048x2048_S32x2048x2048_0_1_2 : S1x2048x2048.BroadcastsInDim S32x2048x2048 (![0, 1, 2] : Fin 3 → Fin S32x2048x2048.rank)
  reducesTo_S32x2048x2048_S32x2048_d1 : S32x2048x2048.ReducesTo [1] S32x2048
  h_S_ : 0 < S_.numel
  bcast_S_S32x2048 : S_.BroadcastsInDim S32x2048 (![] : Fin 0 → Fin S32x2048.rank)
  reducesTo_S32x2048_S_d0_1 : S32x2048.ReducesTo [0, 1] S_

variable [Facts₀]

class Facts : Prop extends Facts₀ where

variable [Facts]
-- ==== Proof.ScratchRows.lean ====
/-
  The scratch block of one grid step.  The body fills a [32, 512] scratch buffer row by row: row n is, lane by
  lane, the maximum over the 2048 source classes j of  levels[j, lane] * targetT[j, n]  (column n of the transposed
  target broadcast along the lanes, multiplied into the class-level slab, reduced over the source-class axis from
  minus infinity).  The thirty-two stores are single rows that tile the buffer, so the later whole-buffer load reads
  them back; the step's output block is the loss formula applied to that read-back and the logits block.
-/
import proofs.«151450_j42511586296019_1_alg».proof.Proof.Gen.KernelIdeal.Frame
import Idealize.ShloMosaic.Lib.Pipeline.Value
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.Sem

variable {F : FTy → Type} [FloatOps F]

theorem hz : (![0, 0] : Fin 2 → Nat) = fun _ => 0 := funext fun a => by fin_cases a <;> rfl

/-- One scratch row: the column of the [2048, 32] operand at offset `off`, broadcast along the 512 lanes, multiplied
    into the [2048, 512] slab and maximized over the 2048 rows, as a [1, 512] row. -/
def rowOf (off : Fin 2 → Nat) (hs : S2048x32.Slices off S2048x1) (v1 : FVec F S2048x32 .f32) (v2 : Vec F S2048x512 .f32) :
    FVec F S1x512 .f32 :=
  shapeCast S1x512 (shapeCast S1x512 (multiReduction .maximumf [0] S512
    (mulf v2 (broadcastTo S2048x512 (extractStridedSlice S2048x1 off v1 hs) broadcasts_S2048x1_S2048x512))
    0xFF800000#32 reduces_S2048x512_S512 (.inl rfl) rfl) shapeCasts_S512_S1x512) shapeCasts_S1x512_S1x512

/-- The thirty-two row stores into the scratch buffer, last first: row n holds `rowOf` of column n. -/
def rows (x0 : Vec F S2048x32 .f32) (x1 : Vec F S2048x512 .f32) : List (View.Piece (Elt F) S32x512 .f32) :=
  [
    ⟨Rect.unit (s := S32x512) ![31, 0] S1x512.size inb_S32x512_S1x512_31_0, rowOf ![0, 31] slices_S2048x32_o0_31_S2048x1 (k0_pay1 x0) x1⟩,
    ⟨Rect.unit (s := S32x512) ![30, 0] S1x512.size inb_S32x512_S1x512_30_0, rowOf ![0, 30] slices_S2048x32_o0_30_S2048x1 (k0_pay1 x0) x1⟩,
    ⟨Rect.unit (s := S32x512) ![29, 0] S1x512.size inb_S32x512_S1x512_29_0, rowOf ![0, 29] slices_S2048x32_o0_29_S2048x1 (k0_pay1 x0) x1⟩,
    ⟨Rect.unit (s := S32x512) ![28, 0] S1x512.size inb_S32x512_S1x512_28_0, rowOf ![0, 28] slices_S2048x32_o0_28_S2048x1 (k0_pay1 x0) x1⟩,
    ⟨Rect.unit (s := S32x512) ![27, 0] S1x512.size inb_S32x512_S1x512_27_0, rowOf ![0, 27] slices_S2048x32_o0_27_S2048x1 (k0_pay1 x0) x1⟩,
    ⟨Rect.unit (s := S32x512) ![26, 0] S1x512.size inb_S32x512_S1x512_26_0, rowOf ![0, 26] slices_S2048x32_o0_26_S2048x1 (k0_pay1 x0) x1⟩,
    ⟨Rect.unit (s := S32x512) ![25, 0] S1x512.size inb_S32x512_S1x512_25_0, rowOf ![0, 25] slices_S2048x32_o0_25_S2048x1 (k0_pay1 x0) x1⟩,
    ⟨Rect.unit (s := S32x512) ![24, 0] S1x512.size inb_S32x512_S1x512_24_0, rowOf ![0, 24] slices_S2048x32_o0_24_S2048x1 (k0_pay1 x0) x1⟩,
    ⟨Rect.unit (s := S32x512) ![23, 0] S1x512.size inb_S32x512_S1x512_23_0, rowOf ![0, 23] slices_S2048x32_o0_23_S2048x1 (k0_pay1 x0) x1⟩,
    ⟨Rect.unit (s := S32x512) ![22, 0] S1x512.size inb_S32x512_S1x512_22_0, rowOf ![0, 22] slices_S2048x32_o0_22_S2048x1 (k0_pay1 x0) x1⟩,
    ⟨Rect.unit (s := S32x512) ![21, 0] S1x512.size inb_S32x512_S1x512_21_0, rowOf ![0, 21] slices_S2048x32_o0_21_S2048x1 (k0_pay1 x0) x1⟩,
    ⟨Rect.unit (s := S32x512) ![20, 0] S1x512.size inb_S32x512_S1x512_20_0, rowOf ![0, 20] slices_S2048x32_o0_20_S2048x1 (k0_pay1 x0) x1⟩,
    ⟨Rect.unit (s := S32x512) ![19, 0] S1x512.size inb_S32x512_S1x512_19_0, rowOf ![0, 19] slices_S2048x32_o0_19_S2048x1 (k0_pay1 x0) x1⟩,
    ⟨Rect.unit (s := S32x512) ![18, 0] S1x512.size inb_S32x512_S1x512_18_0, rowOf ![0, 18] slices_S2048x32_o0_18_S2048x1 (k0_pay1 x0) x1⟩,
    ⟨Rect.unit (s := S32x512) ![17, 0] S1x512.size inb_S32x512_S1x512_17_0, rowOf ![0, 17] slices_S2048x32_o0_17_S2048x1 (k0_pay1 x0) x1⟩,
    ⟨Rect.unit (s := S32x512) ![16, 0] S1x512.size inb_S32x512_S1x512_16_0, rowOf ![0, 16] slices_S2048x32_o0_16_S2048x1 (k0_pay1 x0) x1⟩,
    ⟨Rect.unit (s := S32x512) ![15, 0] S1x512.size inb_S32x512_S1x512_15_0, rowOf ![0, 15] slices_S2048x32_o0_15_S2048x1 (k0_pay1 x0) x1⟩,
    ⟨Rect.unit (s := S32x512) ![14, 0] S1x512.size inb_S32x512_S1x512_14_0, rowOf ![0, 14] slices_S2048x32_o0_14_S2048x1 (k0_pay1 x0) x1⟩,
    ⟨Rect.unit (s := S32x512) ![13, 0] S1x512.size inb_S32x512_S1x512_13_0, rowOf ![0, 13] slices_S2048x32_o0_13_S2048x1 (k0_pay1 x0) x1⟩,
    ⟨Rect.unit (s := S32x512) ![12, 0] S1x512.size inb_S32x512_S1x512_12_0, rowOf ![0, 12] slices_S2048x32_o0_12_S2048x1 (k0_pay1 x0) x1⟩,
    ⟨Rect.unit (s := S32x512) ![11, 0] S1x512.size inb_S32x512_S1x512_11_0, rowOf ![0, 11] slices_S2048x32_o0_11_S2048x1 (k0_pay1 x0) x1⟩,
    ⟨Rect.unit (s := S32x512) ![10, 0] S1x512.size inb_S32x512_S1x512_10_0, rowOf ![0, 10] slices_S2048x32_o0_10_S2048x1 (k0_pay1 x0) x1⟩,
    ⟨Rect.unit (s := S32x512) ![9, 0] S1x512.size inb_S32x512_S1x512_9_0, rowOf ![0, 9] slices_S2048x32_o0_9_S2048x1 (k0_pay1 x0) x1⟩,
    ⟨Rect.unit (s := S32x512) ![8, 0] S1x512.size inb_S32x512_S1x512_8_0, rowOf ![0, 8] slices_S2048x32_o0_8_S2048x1 (k0_pay1 x0) x1⟩,
    ⟨Rect.unit (s := S32x512) ![7, 0] S1x512.size inb_S32x512_S1x512_7_0, rowOf ![0, 7] slices_S2048x32_o0_7_S2048x1 (k0_pay1 x0) x1⟩,
    ⟨Rect.unit (s := S32x512) ![6, 0] S1x512.size inb_S32x512_S1x512_6_0, rowOf ![0, 6] slices_S2048x32_o0_6_S2048x1 (k0_pay1 x0) x1⟩,
    ⟨Rect.unit (s := S32x512) ![5, 0] S1x512.size inb_S32x512_S1x512_5_0, rowOf ![0, 5] slices_S2048x32_o0_5_S2048x1 (k0_pay1 x0) x1⟩,
    ⟨Rect.unit (s := S32x512) ![4, 0] S1x512.size inb_S32x512_S1x512_4_0, rowOf ![0, 4] slices_S2048x32_o0_4_S2048x1 (k0_pay1 x0) x1⟩,
    ⟨Rect.unit (s := S32x512) ![3, 0] S1x512.size inb_S32x512_S1x512_3_0, rowOf ![0, 3] slices_S2048x32_o0_3_S2048x1 (k0_pay1 x0) x1⟩,
    ⟨Rect.unit (s := S32x512) ![2, 0] S1x512.size inb_S32x512_S1x512_2_0, rowOf ![0, 2] slices_S2048x32_o0_2_S2048x1 (k0_pay1 x0) x1⟩,
    ⟨Rect.unit (s := S32x512) ![1, 0] S1x512.size inb_S32x512_S1x512_1_0, rowOf ![0, 1] slices_S2048x32_o0_1_S2048x1 (k0_pay1 x0) x1⟩,
    ⟨Rect.unit (s := S32x512) ![0, 0] S1x512.size inb_S32x512_S1x512_0_0, rowOf ![0, 0] slices_S2048x32_o0_0_S2048x1 (k0_pay1 x0) x1⟩ ]

/-- The row stores tile the scratch buffer in [1, 512] blocks, so every index is under one of them. -/
theorem rows_cover (x0 : Vec F S2048x32 .f32) (x1 : Vec F S2048x512 .f32) (y : S32x512.Idx) :
    ∃ p ∈ rows x0 x1, y ∈ p.1.set :=
  View.cover_of_tiledL (rows x0 x1) S1x512.size (by sl_kernel_rfl) y

/-- What the scratch buffer holds once the rows are stored. -/
def scratch (x0 : Vec F S2048x32 .f32) (x1 : Vec F S2048x512 .f32) : Vec F S32x512 .f32 :=
  View.canon (rows x0 x1)

/-- The step's output block: the elementwise loss payload of the logits block and the scratch read-back. -/
theorem out_eq (c : Dev nD) (i : grid0.Coords) (arg1 : Memref sig .tc .vmem S2048x32 .f32) (harg1 : arg1.IsWhole) (arg2 : Memref sig .tc .vmem S2048x512 .f32) (harg2 : arg2.IsWhole) (arg3 : Memref sig .tc .vmem S32x512 .f32) (harg3 : arg3.IsWhole) (arg4 : Memref sig .tc .vmem S32x512 .f32) (harg4 : arg4.IsWhole) (arg5 : Memref sig .tc .vmem S32x512 .f32) (harg5 : arg5.IsWhole)
    (x0 : Vec F S2048x32 .f32) (x1 : Vec F S2048x512 .f32) (x2 : Vec F S32x512 .f32) :
    out0_A_3 c i arg1 harg1 arg2 harg2 arg3 harg3 arg4 harg4 arg5 harg5 x0 x1 x2 = k0_pay40 x2 (scratch x0 x1) := by
  unfold out0_A_3
  rw [View.read_writes_eq_canon _ _ _ (cover0_A_3 c i arg1 harg1 arg2 harg2 arg3 harg3 arg4 harg4 arg5 harg5 x0 x1 x2)]
  unfold kernelRun0_A
  dsimp only
  sl_unfold_words
  rw [View.canon_unit_zero hz]
  simp only [View.readAt_eq_ld, harg1.read_unread, harg2.read_unread, harg3.read_unread,
    View.ld_unit_zero (S := S2048x32) hz, View.ld_unit_zero (S := S2048x512) hz, View.ld_unit_zero (S := S32x512) hz]
  refine congrArg (k0_pay40 x2) ?_
  refine (View.readCov_eq_canon_ld _ _ _ ?_).trans ?_
  · exact rows_cover x0 x1
  · rw [View.ld_unit_zero (S := S32x512) hz]
    rfl

end Cert.KernelIdeal.Body

end
-- ==== Proof.Spec.lean ====
/-
  The mathematics both programs compute, over the extended reals.

  For a batch of 32 logit rows `x`, a 0/1 target matrix `t` (32 × 2048) and a class-level weight matrix `L`
  (2048 × 2048), the soft target of sample n at class c is the maximum over source classes j of L[j, c] · t[n, j]
  (from minus infinity), the elementwise loss is the stable binary cross-entropy with logits
      max(x, 0) − x · s + log(1 + exp(−|x|)),
  and the result is the mean of the 32 · 2048 losses: their sum from zero, divided by 65536.
-/
import Idealize.ShloMosaic.PureOps.Ideal
import Idealize.ShloMosaic.PureOps.Ideal.Laws
import Idealize.ShloMosaic.Lib.ValueIdx

noncomputable section

namespace HierLoss

open Idealize.ShloMosaic Idealize.ShloMosaic.ValueIdx

/-- The maximum of 2048 extended reals, folded from the word of minus infinity. -/
def colMax (f : Fin 2048 → Ideal .f32) : Ideal .f32 :=
  (Finset.univ : Finset (Fin 2048)).fold max (Ideal.ofBits .f32 0xFF800000#32) f

/-- Binary cross-entropy with logits in its stable form: max(x, 0) − x·s + log1p(exp(−|x|)). -/
def bce (x s : Ideal .f32) : Ideal .f32 :=
  max x (Ideal.ofBits .f32 0x00000000#32) - x * s + Ideal.log1p (Ideal.exp (-(FloatOps.absf x)))

/-- The same with the negation written as a subtraction from the zero word (0 − |x| = −|x| on the extended reals). -/
theorem bce_sub (x s : Ideal .f32) :
    max x (Ideal.ofBits .f32 0x00000000#32) - x * s
        + Ideal.log1p (Ideal.exp (Ideal.ofBits .f32 0x00000000#32 - FloatOps.absf x)) = bce x s := by
  unfold bce
  rw [show Ideal.ofBits .f32 0x00000000#32 - FloatOps.absf x = -(FloatOps.absf x) from by
    rw [Ideal.ofBits_zero_f32]; exact zero_sub _]

/-- The soft target of sample `n` at class `c`: the largest weighted positive, max over j of L[j, c] · t[n, j]. -/
def soft (tgt : (⟨2, ![32, 2048]⟩ : Shape).Idx → Ideal .f32) (lev : (⟨2, ![2048, 2048]⟩ : Shape).Idx → Ideal .f32)
    (n : Fin 32) (c : Fin 2048) : Ideal .f32 :=
  colMax fun j => lev (ix2 j c) * tgt (ix2 n j)

/-- The 32 × 2048 array of losses. -/
def lossArr (inp tgt : (⟨2, ![32, 2048]⟩ : Shape).Idx → Ideal .f32) (lev : (⟨2, ![2048, 2048]⟩ : Shape).Idx → Ideal .f32) :
    (⟨2, ![32, 2048]⟩ : Shape).Idx → Ideal .f32 :=
  fun i => bce (inp i) (soft tgt lev (i 0) (i 1))

end HierLoss

end
-- ==== Proof.LibColumnLayout.lean ====
/-
  Column forms of the layout operations, read at an index by coordinates: a vector [a] cast to the column [a, 1]
  and back, and a column [a, 1] broadcast along its unit axis to [a, b].  Each reads the operand at the same
  row; the unit axis carries coordinate 0.
-/
import Idealize.ShloMosaic.Lib.ValueLayout
import Idealize.ShloMosaic.Lib.Pipeline.Value

namespace PhysLoss

open Idealize.ShloMosaic Idealize.ShloMosaic.ValueIdx

variable {α : Type}

/-- A vector `[a]` cast to the column `[a, 1]` reads, at `(i, 0)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to the vector `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` broadcast to `[a, b]` reads, at `(p, c)`, the operand at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end PhysLoss
-- ==== Proof.LibMaxReduce.lean ====
/-
  Maximum reductions read at an index, over the extended reals, as folds of `max` over one coordinate.

  A vector maximum-reduction of an [a, b] array over its rows, at lane q, is the fold of max from the accumulator's
  value over the entries (j, q); the host's reduce with a maximum body over the middle axis of an [a, b, c] array,
  at (n, k), is the fold of max from the initial value over the entries (n, j, k).  Each index with the reduced
  coordinate put back is named by its coordinates, so a proof continues entry by entry.
-/
import Idealize.ShloMosaic.PureOps.Ideal.Laws
import Idealize.ShloMosaic.PureOps.Reduce
import Idealize.ShloMosaic.Lib.ValueIdx

noncomputable section

namespace MaxReduce

open Idealize.ShloMosaic Idealize.ShloMosaic.ValueIdx

variable {a b c : ℕ}

/-- In an [a, b] array reduced over its rows, the reduced index `q` with row `j` put back is (j, q). -/
theorem lift_rows (h : (⟨2, ![a, b]⟩ : Shape).Reduces [0] (⟨1, ![b]⟩ : Shape)) (q : Fin b)
    (j : Fin ((⟨2, ![a, b]⟩ : Shape).size 0)) : h.lift (ix1 q) j = ix2 (⟨j.val, j.isLt⟩ : Fin a) q := by
  funext d; apply Fin.ext
  fin_cases d <;> rfl

/-- A vector maximum-reduction of an [a, b] array over its rows, at lane `q`: the fold of max from the accumulator's
    value over the rows' entries at that lane. -/
theorem multiReduction_max_rows {φ : FTy} (src : FVec Ideal ⟨2, ![a, b]⟩ φ) (acc : BitVec φ.bits)
    (h : (⟨2, ![a, b]⟩ : Shape).Reduces [0] (⟨1, ![b]⟩ : Shape)) (hφ : FKind.Formats φ)
    (hacc : acc = FKind.maximumf.neutral φ hφ) (q : Fin b) :
    multiReduction .maximumf [0] (⟨1, ![b]⟩ : Shape) src acc h hφ hacc (ix1 q)
      = (Finset.univ : Finset (Fin a)).fold max (Ideal.ofBits φ acc) fun j => src (ix2 j q) := by
  refine (Ideal.multiReduction_maximumf_single src acc h hφ hacc (ix1 q)).trans ?_
  refine congrArg (fun f => Finset.fold max (Ideal.ofBits φ acc) f (Finset.univ : Finset (Fin a))) ?_
  funext j
  exact congrArg src (lift_rows h q j)

/-- In an [a, b, c] array reduced over its middle axis, the reduced index (n, k) with coordinate `j` put back is
    (n, j, k). -/
theorem lift_mid (h : (⟨3, ![a, b, c]⟩ : Shape).Reduces [1] (⟨2, ![a, c]⟩ : Shape)) (n : Fin a) (k : Fin c)
    (j : Fin ((⟨3, ![a, b, c]⟩ : Shape).size 1)) : h.lift (ix2 n k) j = ix3 n (⟨j.val, j.isLt⟩ : Fin b) k := by
  funext d; apply Fin.ext
  fin_cases d <;> rfl

/-- The host's reduce with a maximum body over the middle axis of an [a, b, c] array, at (n, k): the fold of max
    from the initial value's element over the entries (n, j, k). -/
theorem hostReduce_max_mid {φ : FTy} {u : Shape} (x : FVec Ideal ⟨3, ![a, b, c]⟩ φ) (init : u.Idx → Ideal φ)
    (h' : (⟨3, ![a, b, c]⟩ : Shape).ReducesTo [1] (⟨2, ![a, c]⟩ : Shape))
    (h : (⟨3, ![a, b, c]⟩ : Shape).Reduces [1] (⟨2, ![a, c]⟩ : Shape)) (hu : 0 < u.numel) (n : Fin a) (k : Fin c) :
    Host.reduce FloatOps.maximumf x init h' hu (ix2 n k)
      = (Finset.univ : Finset (Fin b)).fold max (init (Shape.Idx.first hu)) fun j => x (ix3 n j k) := by
  rw [Host.reduce_eq_fold_single FloatOps.maximumf x init h' h hu]
  refine congrArg (fun f => Finset.fold max (init (Shape.Idx.first hu)) f (Finset.univ : Finset (Fin b))) ?_
  funext j
  exact congrArg x (lift_mid h n k j)

end MaxReduce

end
-- ==== Proof.RowValue.lean ====
/-
  One scratch row and the loss payload read at an index, over the extended reals.

  Row n of the scratch block at lane q is the maximum over the 2048 source classes j of slab[j, q] · col[j, n]: the
  column slice reads (j, n), its broadcast along the lanes reads (j, 0) of the column, the product is pointwise, and
  the reduction over axis 0 from minus infinity is the fold of max over j.  The loss payload is pointwise.
-/
import proofs.«151450_j42511586296019_1_alg».proof.Proof.ScratchRows
import proofs.«151450_j42511586296019_1_alg».proof.Proof.Spec
import proofs.«151450_j42511586296019_1_alg».proof.Proof.LibColumnLayout
import proofs.«151450_j42511586296019_1_alg».proof.Proof.LibMaxReduce
import Idealize.ShloMosaic.PureOps.Ideal.Laws
import Idealize.ShloMosaic.Lib.ValueIdx
import Idealize.ShloMosaic.Lib.ValueLayout

set_option maxRecDepth 16384

noncomputable section

namespace Cert.KernelIdeal.Body

open Cert.KernelIdeal Cert.KernelIdeal.Gen
open Idealize.ShloMosaic Idealize.ShloMosaic.ValueIdx

/-- The maximum-reduction of a [2048, 512] vector over its rows from minus infinity, at lane `q`: the fold of max over the rows' entries there. -/
theorem reduce_col (src : FVec Ideal S2048x512 .f32) (hφ : FKind.Formats .f32)
    (hacc : (0xFF800000#32 : BitVec 32) = FKind.maximumf.neutral .f32 hφ) (q : Fin 512) :
    multiReduction .maximumf [0] S512 src 0xFF800000#32 reduces_S2048x512_S512 hφ hacc (ix1 q)
      = HierLoss.colMax fun j => src (ix2 j q) :=
  MaxReduce.multiReduction_max_rows (a := 2048) (b := 512) src _ reduces_S2048x512_S512 hφ hacc q

/-- A scratch row at lane `q`: the maximum over j of slab[j, q] · operand[j, k], `k` the column the row slices. -/
theorem rowOf_apply (k : Nat) (hk : k < 32) (hs : S2048x32.Slices ![0, k] S2048x1) (v1 : FVec Ideal S2048x32 .f32)
    (v2 : Vec Ideal S2048x512 .f32) (u : Fin 1) (q : Fin 512) :
    rowOf ![0, k] hs v1 v2 (ix2 u q) = HierLoss.colMax fun j => v2 (ix2 j q) * v1 (ix2 j (⟨k, hk⟩ : Fin 32)) := by
  unfold rowOf
  rw [shapeCast_self]
  refine (shapeCast_apply _ _ (ix2 u q) (ix1 q) ?_).trans ?_
  · have hu : u.val = 0 := by omega
    rw [Shape.rowMajor_val_two, Shape.rowMajor_val_one]
    show q.val = u.val * 512 + q.val
    rw [hu]; omega
  refine (reduce_col _ _ _ q).trans ?_
  refine congrArg HierLoss.colMax ?_
  funext j
  show v2 (ix2 j q) * broadcastTo S2048x512 (extractStridedSlice S2048x1 ![0, k] v1 hs) broadcasts_S2048x1_S2048x512 (ix2 j q) = _
  rw [PhysLoss.broadcastTo_a1_ab_apply]
  refine congrArg (fun z => v2 (ix2 j q) * z) ?_
  refine extractStridedSlice_apply _ v1 hs (ix2 j (0 : Fin 1)) (ix2 j (⟨k, hk⟩ : Fin 32)) fun a => ?_
  match a with
  | ⟨0, _⟩ => show j.val = 0 + j.val; omega
  | ⟨1, _⟩ => show k = k + 0; omega

/-- The loss payload is pointwise: at every index, the cross-entropy of the logit and the soft target there. -/
theorem pay40_apply (x s : Vec Ideal S32x512 .f32) (i : S32x512.Idx) :
    k0_pay40 (F := Ideal) x s i = HierLoss.bce (x i) (s i) := by
  unfold k0_pay40
  exact HierLoss.bce_sub (x i) (s i)

end Cert.KernelIdeal.Body

end
-- ==== Proof.BlockValue.lean ====
/-
  The scratch block and the output block of one grid step as functions of the index.

  Row n of the scratch block is the store whose rectangle starts at row n, so the buffer read back at (n, q) is
  max over j of slab[j, q] · operand[j, n]; the output block at (n, q) is the cross-entropy of the logit there and
  that maximum.
-/
import proofs.«151450_j42511586296019_1_alg».proof.Proof.RowValue

set_option maxRecDepth 16384

noncomputable section

namespace Cert.KernelIdeal.Body

open Cert.KernelIdeal Cert.KernelIdeal.Gen
open Idealize.ShloMosaic Idealize.ShloMosaic.ValueIdx

/-- The soft targets of one step's block: at (n, q), max over j of slab[j, q] · operand[j, n]. -/
def softBlock (x0 : Vec Ideal S2048x32 .f32) (x1 : Vec Ideal S2048x512 .f32) : S32x512.Idx → Ideal .f32 :=
  fun y => HierLoss.colMax fun j =>
    x1 (ix2 j (⟨(y 1).val, (y 1).isLt⟩ : Fin 512)) * x0 (ix2 j (⟨(y 0).val, (y 0).isLt⟩ : Fin 32))

/-- The row store at row `k` holds, at each of its lanes, the block's soft target at the index it lands on. -/
theorem row_piece (k : Nat) (inb : ∀ a, (![k, 0] : Fin 2 → Nat) a + S1x512.size a ≤ S32x512.size a)
    (hs : S2048x32.Slices ![0, k] S2048x1) (v1 : FVec Ideal S2048x32 .f32) (v2 : Vec Ideal S2048x512 .f32)
    (x : S1x512.Idx) :
    rowOf ![0, k] hs v1 v2 x = softBlock v1 v2 ((Rect.unit (s := S32x512) ![k, 0] S1x512.size inb).emb x) := by
  have hk : k < 32 := by
    have h := inb 0
    change k + 1 ≤ 32 at h
    omega
  obtain ⟨u, q, rfl⟩ : ∃ (u : Fin 1) (q : Fin 512), x = ix2 u q := ⟨x 0, x 1, eq_ix2 x⟩
  rw [rowOf_apply k hk]
  unfold softBlock
  refine congrArg HierLoss.colMax ?_
  funext j
  have hu : u.val = 0 := by omega
  have e1 : (⟨((Rect.unit (s := S32x512) ![k, 0] S1x512.size inb).emb (ix2 u q) 1).val,
      ((Rect.unit (s := S32x512) ![k, 0] S1x512.size inb).emb (ix2 u q) 1).isLt⟩ : Fin 512) = q :=
    Fin.ext (by show 0 + 1 * q.val = q.val; omega)
  have e0 : (⟨((Rect.unit (s := S32x512) ![k, 0] S1x512.size inb).emb (ix2 u q) 0).val,
      ((Rect.unit (s := S32x512) ![k, 0] S1x512.size inb).emb (ix2 u q) 0).isLt⟩ : Fin 32) = ⟨k, hk⟩ :=
    Fin.ext (by show k + 1 * u.val = k; rw [hu]; omega)
  rw [e1, e0]

/-- The scratch buffer after the thirty-two row stores, read at an index, is the block's soft target there. -/
theorem scratch_apply (x0 : Vec Ideal S2048x32 .f32) (x1 : Vec Ideal S2048x512 .f32) (y : S32x512.Idx) :
    scratch x0 x1 y = softBlock x0 x1 y := by
  have e : k0_pay1 (F := Ideal) x0 = x0 := shapeCast_self _ _
  unfold scratch
  refine (View.canon_apply_of_pieces (softBlock (k0_pay1 x0) x1) (rows x0 x1) ?_ y (rows_cover x0 x1 y)).trans ?_
  · intro p hp
    simp only [rows, List.mem_cons, List.not_mem_nil, or_false] at hp
    rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
    all_goals
      intro x
      dsimp only
      exact row_piece _ _ _ _ _ x
  · rw [e]

/-- One step's output block at an index: the cross-entropy of the logit and the block's soft target there. -/
theorem block_value (x0 : Vec Ideal S2048x32 .f32) (x1 : Vec Ideal S2048x512 .f32) (x2 : Vec Ideal S32x512 .f32)
    (y : S32x512.Idx) :
    k0_pay40 (F := Ideal) x2 (scratch x0 x1) y = HierLoss.bce (x2 y) (softBlock x0 x1 y) := by
  rw [pay40_apply, scratch_apply]

end Cert.KernelIdeal.Body

end
-- ==== Proof.KernelArray.lean ====
/-
  The kernel's loss array after the run, and the mean the host takes of it.

  Grid step t reads the whole transposed target, columns 512·t … 512·t + 511 of the class-level matrix and of the
  logits, and writes back the same columns of the output.  Its output block is therefore the block of ONE array: at
  (n, c) the cross-entropy of the logit x[n, c] and max over j of L[j, c] · t[n, j] — the transposition the host
  made before the call read back at (j, n).  The four blocks cover the 2048 columns, so the output array after the
  run is that array, and the host's lines after the call take its mean.
-/
import proofs.«151450_j42511586296019_1_alg».proof.Proof.BlockValue
import Idealize.ShloMosaic.Lib.StableHlo.Run

set_option maxRecDepth 16384

noncomputable section

namespace Cert.KernelIdeal.Body

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The array the first window stages is the host's transposition of the target argument. -/
theorem V_tgtT (c : Dev nD) :
    (V m c main_v0 : S2048x32.Idx → Ideal .f32)
      = transpose S2048x32 [1, 0] (m ((c : Thread nD τ).loc main_arg1)) transposes_S32x2048_S2048x32_1_0 := by
  show StableHlo.after hostOps0 (fun b => m (c, b)) (Proc.devRef .tc main_v0) = _
  after_results

/-- Read at (j, n) it is the target at (n, j). -/
theorem tgtT_apply (c : Dev nD) (j : Fin 2048) (n : Fin 32) :
    (V m c main_v0 : S2048x32.Idx → Ideal .f32) (ix2 j n) = m ((c : Thread nD τ).loc main_arg1) (ix2 n j) :=
  (congrFun (V_tgtT m c) (ix2 j n)).trans
    (transpose_apply _ _ _ (ix2 j n) (ix2 n j) fun b => by
      match b with
      | ⟨0, _⟩ => rfl
      | ⟨1, _⟩ => rfl)

/-- The loss array of the three arguments as launched. -/
abbrev result (c : Dev nD) : S32x2048.Idx → Ideal .f32 :=
  HierLoss.lossArr (m ((c : Thread nD τ).loc main_arg0)) (m ((c : Thread nD τ).loc main_arg1))
    (m ((c : Thread nD τ).loc main_arg2))

/-- The printed index maps over the grid: the first window never moves; the other three sit at block column t. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = t.val
    ∧ win0_3.index t (0 : Fin 2) = 0 ∧ win0_3.index t (1 : Fin 2) = t.val :=
  (by decide +kernel : ∀ t : Fin grid0.N, _)

/-- What step t writes back is block t of the loss array. -/
theorem flushed_eq (c : Dev nD) (t : Fin cfg0.N) :
    (dats m 0 c).flushed 3 t = ((cfg0.win 3).blk t).view.read (Elt Ideal) (result m c) := by
  show (cfg0.win 3).cut (grid0.coords t) ((dats m 0 c).after 3 t) = _
  rw [after0_3]
  unfold outsAt0
  rw [out_eq]
  obtain ⟨a0, a1, b0, b1, c0, c1, d0, d1⟩ := idx_facts t
  have hN : cfg0.N = 4 := N_0
  have ht : t.val < 4 := by have := t.isLt; omega
  funext y
  show k0_pay40 (F := Ideal) (iblk m c 2 t) (scratch (iblk m c 0 t) (iblk m c 1 t)) y
    = result m c (((cfg0.win 3).blk t).view.emb y)
  refine (block_value (iblk m c 0 t) (iblk m c 1 t) (iblk m c 2 t) y).trans ?_
  have hy0 : (y 0).val < 32 := (y 0).isLt
  have hy1 : (y 1).val < 512 := (y 1).isLt
  -- the logit: window 2's block is the output's block of the logits argument
  have hx : iblk m c 2 t y = m ((c : Thread nD τ).loc main_arg0) (((cfg0.win 3).blk t).view.emb y) := by
    show V m c main_arg0 (((cfg0.win 2).blk t).view.emb y) = _
    rw [V_main_arg0]
    refine congrArg (m ((c : Thread nD τ).loc main_arg0)) (funext fun a => Fin.ext ?_)
    match a with
    | ⟨0, _⟩ => show win0_2.index t (0 : Fin 2) * 32 + 1 * (y 0).val = win0_3.index t (0 : Fin 2) * 32 + 1 * (y 0).val; omega
    | ⟨1, _⟩ => show win0_2.index t (1 : Fin 2) * 512 + 1 * (y 1).val = win0_3.index t (1 : Fin 2) * 512 + 1 * (y 1).val; omega
  -- the class-level slab at (j, q) is the matrix at (j, the output's column)
  have hlev : ∀ j : Fin 2048, iblk m c 1 t (ix2 j (⟨(y 1).val, (y 1).isLt⟩ : Fin 512))
      = m ((c : Thread nD τ).loc main_arg2) (ix2 j ((((cfg0.win 3).blk t).view.emb y) 1)) := by
    intro j
    show V m c main_arg2 (((cfg0.win 1).blk t).view.emb (ix2 j (⟨(y 1).val, (y 1).isLt⟩ : Fin 512))) = _
    rw [V_main_arg2]
    refine congrArg (m ((c : Thread nD τ).loc main_arg2)) (funext fun a => Fin.ext ?_)
    match a with
    | ⟨0, _⟩ => show win0_1.index t (0 : Fin 2) * 2048 + 1 * j.val = j.val; omega
    | ⟨1, _⟩ => show win0_1.index t (1 : Fin 2) * 512 + 1 * (y 1).val = win0_3.index t (1 : Fin 2) * 512 + 1 * (y 1).val; omega
  -- the transposed target at (j, n) is the target at (the output's row, j)
  have htgt : ∀ j : Fin 2048, iblk m c 0 t (ix2 j (⟨(y 0).val, (y 0).isLt⟩ : Fin 32))
      = m ((c : Thread nD τ).loc main_arg1) (ix2 ((((cfg0.win 3).blk t).view.emb y) 0) j) := by
    intro j
    show V m c main_v0 (((cfg0.win 0).blk t).view.emb (ix2 j (⟨(y 0).val, (y 0).isLt⟩ : Fin 32))) = _
    have e : ((cfg0.win 0).blk t).view.emb (ix2 j (⟨(y 0).val, (y 0).isLt⟩ : Fin 32))
        = ix2 j (⟨((((cfg0.win 3).blk t).view.emb y) 0).val, ((((cfg0.win 3).blk t).view.emb y) 0).isLt⟩ : Fin 32) := by
      funext a; apply Fin.ext
      match a with
      | ⟨0, _⟩ => show win0_0.index t (0 : Fin 2) * 2048 + 1 * j.val = j.val; omega
      | ⟨1, _⟩ => show win0_0.index t (1 : Fin 2) * 32 + 1 * (y 0).val = win0_3.index t (0 : Fin 2) * 32 + 1 * (y 0).val; omega
    rw [e]
    exact tgtT_apply m c j _
  unfold result HierLoss.lossArr HierLoss.soft softBlock
  rw [hx]
  refine congrArg (HierLoss.bce _) (congrArg HierLoss.colMax (funext fun j => ?_))
  rw [hlev j, htgt j]

/-- An index of the output array is in step t's block iff its column is among the block's 512. -/
theorem mem_blk (t : Fin cfg0.N) (i : S32x2048.Idx) :
    i ∈ ((cfg0.win 3).blk t).view.set ↔ ∀ a : Fin 2, win0_3.index t a * S32x512.size a ≤ (i a).val
      ∧ (i a).val < win0_3.index t a * S32x512.size a + S32x512.size a := by
  show i ∈ ((View.whole main_v1).slice (win0_3.rect t)).set ↔ _
  rw [View.set_slice_whole, Rect.mem_set_unit]
  exact Iff.rfl

/-- Every block column is some step's. -/
theorem idx_onto : ∀ q : Fin 4, ∃ t : Fin cfg0.N, win0_3.index t = ![0, q.val] :=
  (by decide +kernel : ∀ q : Fin 4, ∃ t : Fin grid0.N, win0_3.index t = ![0, q.val])

/-- The output array after the run is the loss array: the step at column block c / 512 covers column c. -/
theorem final (c : Dev nD) : (dats m 0 c).arrAt 3 cfg0.N = result m c :=
  (dats m 0 c).arrAt_eq_of_cover 3 (result m c) (fun t _ => flushed_eq m c t) fun i => by
    have hi0 : (i 0).val < 32 := (i 0).isLt
    have hi1 : (i 1).val < 2048 := (i 1).isLt
    obtain ⟨t, ht⟩ := idx_onto ⟨(i 1).val / 512, by omega⟩
    have q0 : win0_3.index t (0 : Fin 2) = 0 := congrFun ht 0
    have q1 : win0_3.index t (1 : Fin 2) = (i 1).val / 512 := congrFun ht 1
    refine ⟨t, flush0_3 t, ?_⟩
    rw [mem_blk]
    intro a
    match a with
    | ⟨0, _⟩ => show win0_3.index t (0 : Fin 2) * 32 ≤ (i 0).val ∧ (i 0).val < win0_3.index t (0 : Fin 2) * 32 + 32; omega
    | ⟨1, _⟩ => show win0_3.index t (1 : Fin 2) * 512 ≤ (i 1).val ∧ (i 1).val < win0_3.index t (1 : Fin 2) * 512 + 512; omega

/-- The mean as the host takes it: the sum from zero over both axes, divided by 65536. -/
def mean (y : S32x2048.Idx → Ideal .f32) : S_.Idx → Ideal .f32 :=
  Host.divf (Host.reduceAdd (F := Ideal) y (constant (F := Ideal) S_ .f32 0x00000000#32) reducesTo_S32x2048_S_d0_1 h_S_)
    (constant (F := Ideal) S_ .f32 0x47800000#32)

/-- The host's lines after the call leave the mean of the loss array in the result. -/
theorem tail_eq (c : Dev nD) :
    Pipeline.afterTail₀ cfgs (dats m) 0 (V0 m) [hostOps1] c main_v3 = mean (result m c) := by
  unfold Pipeline.afterTail₀
  show StableHlo.after hostOps1 _ (Proc.devRef .tc main_v3) = _
  after_results
  unfold mean
  rw [(Pipeline.withArrays_arr spec0 launch0.win.arr_inj c _ _ 3).trans (final m c)]

/-- The run, read: the result at the mean of the loss array, the arguments unchanged. -/
theorem run : θ_run defs (onTc (τ := τ) (main (F := Ideal))) ⟨m, fun _ => 0, ρ⟩ fun r => ∀ c : Dev nD,
      r.2.mem ((c.tc : Thread nD τ).loc main_v3) = mean (result m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v3 (Pipeline.mem_restRefs_of main_v3 (by decide) (by decide))).trans (tail_eq m c),
      ((h c).1 2).trans (((dats m 0 c).arrAt_in 2 rfl _).trans ((A_eq m c 2).trans (V_main_arg0 m c))),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c)))⟩)
    (run_main m ρ)

end Cert.KernelIdeal.Body

end
-- ==== Proof.RefValue.lean ====
/-
  The reference's loss array, read index by index over the extended reals.

  The reference forms the rank-3 product t[n, j] · L[j, c] by two broadcasts each and reduces it over the middle axis
  with a maximum from minus infinity; at (n, c) that is the fold of max over j of t[n, j] · L[j, c], the soft target
  with the factors in the other order.  The remaining operations are pointwise and spell the stable cross-entropy;
  the host's negation, absolute value, exponential and log1p are the same functions of an extended real as the
  kernel's.  The result is the mean of that array.
-/
import proofs.«151450_j42511586296019_1_alg».proof.Proof.Gen.ReferenceIdeal.Read
import proofs.«151450_j42511586296019_1_alg».proof.Proof.Spec
import proofs.«151450_j42511586296019_1_alg».proof.Proof.LibMaxReduce
import Idealize.ShloMosaic.PureOps.Ideal.Laws
import Idealize.ShloMosaic.PureOps.Reduce
import Idealize.ShloMosaic.Lib.ValueIdx

set_option maxRecDepth 16384

noncomputable section

namespace Cert.ReferenceIdeal.RefValue

open Cert.ReferenceIdeal Cert.ReferenceIdeal.Gen Cert.ReferenceIdeal.Read
open Idealize.ShloMosaic Idealize.ShloMosaic.ValueIdx

/-- The rank-3 product at (n, j, c) is t[n, j] · L[j, c]. -/
theorem prod_apply (x1 : FVec Ideal S32x2048 .f32) (x2 : FVec Ideal S2048x2048 .f32) (n : Fin 32) (j c : Fin 2048) :
    val_main_v4 (F := Ideal) x1 x2 (ix3 n j c) = x1 (ix2 n j) * x2 (ix2 j c) := by
  rw [val_main_v4_apply, val_main_v2_apply, val_main_v0_apply, val_main_v3_apply, val_main_v1_apply]
  have e1 : idx_main_v0 (idx_main_v2 (ix3 n j c)) = ix2 n j :=
    funext fun a => Fin.ext (by match a with | ⟨0, _⟩ => rfl | ⟨1, _⟩ => rfl)
  have e2 : idx_main_v1 (idx_main_v3 (ix3 n j c)) = ix2 j c :=
    funext fun a => Fin.ext (by match a with | ⟨0, _⟩ => rfl | ⟨1, _⟩ => rfl)
  rw [e1, e2]
  rfl

/-- The host's maximum-reduction of a rank-3 array over its middle axis from minus infinity, at (n, c): the fold of max
    over the middle coordinate. -/
theorem reduce_mid (x : FVec Ideal S32x2048x2048 .f32) (h' : S32x2048x2048.ReducesTo [1] S32x2048)
    (hu : 0 < S_.numel) (n : Fin 32) (c : Fin 2048) :
    Host.reduce FloatOps.maximumf x (constant S_ .f32 0xFF800000#32) h' hu (ix2 n c)
      = HierLoss.colMax fun j => x (ix3 n j c) := by
  have hr : S32x2048x2048.Reduces [1] S32x2048 := by decide
  exact MaxReduce.hostReduce_max_mid (a := 32) (b := 2048) (c := 2048) x _ h' hr hu n c

/-- The reference's maximum over the middle axis at (n, c) is the soft target there. -/
theorem soft_eq (x1 : FVec Ideal S32x2048 .f32) (x2 : FVec Ideal S2048x2048 .f32) (n : Fin 32) (c : Fin 2048) :
    val_main_v5 (F := Ideal) x1 x2 (ix2 n c) = HierLoss.soft x1 x2 n c := by
  unfold val_main_v5 val_main_cst
  refine (reduce_mid _ _ _ n c).trans ?_
  unfold HierLoss.soft
  refine congrArg HierLoss.colMax ?_
  funext j
  rw [prod_apply]
  exact mul_comm _ _

/-- The reference's loss array is the specification's. -/
theorem loss_eq (x0 x1 : FVec Ideal S32x2048 .f32) (x2 : FVec Ideal S2048x2048 .f32) :
    val_main_v14 (F := Ideal) x0 x1 x2 = HierLoss.lossArr x0 x1 x2 := by
  funext i
  obtain ⟨n, c, rfl⟩ : ∃ (n : Fin 32) (c : Fin 2048), i = ix2 n c := ⟨i 0, i 1, eq_ix2 i⟩
  rw [val_main_v14_apply, val_main_v9_apply, val_main_v7_apply, val_main_v8_apply, val_main_v13_apply,
    val_main_v12_apply, val_main_v11_apply, val_main_v10_apply, val_main_v6_apply, val_main_cst_0_apply, soft_eq]
  rfl

end Cert.ReferenceIdeal.RefValue

end
-- ==== Proof.lean ====
/-
  Both programs compute the mean binary cross-entropy of 32 × 2048 logits against hierarchical soft targets, where
  the soft target of sample n at class c is the largest class-level weight L[j, c] among the positive classes j of
  the sample, written as max over j of L[j, c] · t[n, j].

  The kernel transposes the target on the host, then in four grid steps of 512 classes each fills a scratch block
  with the soft targets (one row per sample: a column of the transposed target broadcast along the lanes, multiplied
  into the class-level slab, maximized over the source classes) and stores the elementwise loss; the host then takes
  the mean.  The reference forms the rank-3 product t[n, j] · L[j, c], maximizes over j, applies the same loss and
  takes the same mean.  Over the extended reals the two agree entry by entry: the products differ only in the order
  of their factors, both maxima are folds from minus infinity over the same 2048 values, the loss is the same
  pointwise formula (0 − |x| is −|x|), and the mean is one function of the loss array.  No finiteness is needed.
-/
import proofs.«151450_j42511586296019_1_alg».proof.Defs
import proofs.«151450_j42511586296019_1_alg».proof.Proof.Gen.Kernel
import proofs.«151450_j42511586296019_1_alg».proof.Proof.Gen.Kernel.Skeleton
import proofs.«151450_j42511586296019_1_alg».proof.Proof.Gen.Kernel.Launch
import proofs.«151450_j42511586296019_1_alg».proof.Proof.Gen.Kernel.Points
import proofs.«151450_j42511586296019_1_alg».proof.Proof.Gen.Kernel.Frame
import proofs.«151450_j42511586296019_1_alg».proof.Proof.Gen.KernelIdeal
import proofs.«151450_j42511586296019_1_alg».proof.Proof.Gen.KernelIdeal.Skeleton
import proofs.«151450_j42511586296019_1_alg».proof.Proof.Gen.KernelIdeal.Launch
import proofs.«151450_j42511586296019_1_alg».proof.Proof.Gen.KernelIdeal.Points
import proofs.«151450_j42511586296019_1_alg».proof.Proof.Gen.KernelIdeal.Frame
import proofs.«151450_j42511586296019_1_alg».proof.Proof.Gen.ReferenceIdeal
import proofs.«151450_j42511586296019_1_alg».proof.Proof.Gen.Pre_finite_inputs
import proofs.«151450_j42511586296019_1_alg».proof.Proof.Gen.ReferenceIdeal.Run
import proofs.«151450_j42511586296019_1_alg».proof.Proof.Gen.ReferenceIdeal.Read
import proofs.«151450_j42511586296019_1_alg».proof.Proof.KernelArray
import proofs.«151450_j42511586296019_1_alg».proof.Proof.RefValue
import Idealize.ShloMosaic.Adequacy
import Idealize.ShloMosaic.Init

noncomputable section

namespace Cert.Proof

open Idealize.ShloMosaic Idealize.SL.Sem Cert.Kernel

/-- The reference's result is the mean of the specification's loss array of its arguments: its last three operations
    are the sum from zero and the division by 65536, applied to the loss array. -/
theorem ref_mean (x0 x1 : FVec Ideal Cert.ReferenceIdeal.S32x2048 .f32) (x2 : FVec Ideal Cert.ReferenceIdeal.S2048x2048 .f32) :
    Cert.ReferenceIdeal.Read.val_main_v16 (F := Ideal) x0 x1 x2
      = Cert.KernelIdeal.Body.mean (HierLoss.lossArr x0 x1 x2) := by
  rw [← Cert.ReferenceIdeal.RefValue.loss_eq]
  rfl

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories agreeing on the arguments, the kernel's result is the mean of the loss array of its arguments and
    the reference's is the mean of the loss array of its own: the same extended real. -/
theorem algebraic : Cert.algebraic_KernelIdeal_ReferenceIdeal := by
  intro m ρ m' ρ' _ hagree
  refine ⟨fun c => Cert.KernelIdeal.Body.mean (Cert.KernelIdeal.Body.result m c), Cert.KernelIdeal.Body.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, ref_mean, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
